-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S4x16x4096 : Shape := ⟨3, ![4, 16, 4096]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) (main_arg3 : IVec S4x16x4096 32) (main_arg4 : IVec S4x16x4096 32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S4x16x4096 : Shape := ⟨3, ![4, 16, 4096]⟩
abbrev S4x16x4096x1 : Shape := ⟨4, ![4, 16, 4096, 1]⟩
abbrev S_ : Shape := ⟨0, ![]⟩
abbrev S1 : Shape := ⟨1, ![1]⟩
abbrev S1x1x1x1 : Shape := ⟨4, ![1, 1, 1, 1]⟩
abbrev S4096x64x64 : Shape := ⟨3, ![4096, 64, 64]⟩
abbrev S128x64x64 : Shape := ⟨3, ![128, 64, 64]⟩

abbrev nBuf : Space → Nat
  | .hbm => 108
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096, .i32⟩
  | .hbm, ⟨4, _⟩ => ⟨S4x16x4096, .i32⟩
  | .hbm, ⟨5, _⟩ => ⟨S4x16x4096x1, .i32⟩
  | .hbm, ⟨6, _⟩ => ⟨S_, .i32⟩
  | .hbm, ⟨7, _⟩ => ⟨S4x16x4096x1, .i32⟩
  | .hbm, ⟨8, _⟩ => ⟨S4x16x4096x1, .i1⟩
  | .hbm, ⟨9, _⟩ => ⟨S_, .i32⟩
  | .hbm, ⟨10, _⟩ => ⟨S4x16x4096x1, .i32⟩
  | .hbm, ⟨11, _⟩ => ⟨S4x16x4096x1, .i32⟩
  | .hbm, ⟨12, _⟩ => ⟨S4x16x4096x1, .i32⟩
  | .hbm, ⟨13, _⟩ => ⟨S1, .i32⟩
  | .hbm, ⟨14, _⟩ => ⟨S_, .i32⟩
  | .hbm, ⟨15, _⟩ => ⟨S4x16x4096x1, .i32⟩
  | .hbm, ⟨16, _⟩ => ⟨S4x16x4096x1, .i1⟩
  | .hbm, ⟨17, _⟩ => ⟨S1x1x1x1, .i32⟩
  | .hbm, ⟨18, _⟩ => ⟨S4x16x4096x1, .i32⟩
  | .hbm, ⟨19, _⟩ => ⟨S4x16x4096x1, .i1⟩
  | .hbm, ⟨20, _⟩ => ⟨S4x16x4096x1, .i1⟩
  | .hbm, ⟨21, _⟩ => ⟨S_, .i1⟩
  | .hbm, ⟨22, _⟩ => ⟨S4x16x4096, .i1⟩
  | .hbm, ⟨23, _⟩ => ⟨S4x16x4096x64, .f32⟩
  | .hbm, ⟨24, _⟩ => ⟨S4x16x4096x64, .i1⟩
  | .hbm, ⟨25, _⟩ => ⟨S_, .f32⟩
  | .hbm, ⟨26, _⟩ => ⟨S4x16x4096x64, .f32⟩
  | .hbm, ⟨27, _⟩ => ⟨S4x16x4096x64, .f32⟩
  | .hbm, ⟨28, _⟩ => ⟨S4x16x4096x1, .i32⟩
  | .hbm, ⟨29, _⟩ => ⟨S_, .i32⟩
  | .hbm, ⟨30, _⟩ => ⟨S4x16x4096x1, .i32⟩
  | .hbm, ⟨31, _⟩ => ⟨S4x16x4096x1, .i1⟩
  | .hbm, ⟨32, _⟩ => ⟨S_, .i32⟩
  | .hbm, ⟨33, _⟩ => ⟨S4x16x4096x1, .i32⟩
  | .hbm, ⟨34, _⟩ => ⟨S4x16x4096x1, .i32⟩
  | .hbm, ⟨35, _⟩ => ⟨S4x16x4096x1, .i32⟩
  | .hbm, ⟨36, _⟩ => ⟨S1, .i32⟩
  | .hbm, ⟨37, _⟩ => ⟨S_, .i32⟩
  | .hbm, ⟨38, _⟩ => ⟨S4x16x4096x1, .i32⟩
  | .hbm, ⟨39, _⟩ => ⟨S4x16x4096x1, .i1⟩
  | .hbm, ⟨40, _⟩ => ⟨S1x1x1x1, .i32⟩
  | .hbm, ⟨41, _⟩ => ⟨S4x16x4096x1, .i32⟩
  | .hbm, ⟨42, _⟩ => ⟨S4x16x4096x1, .i1⟩
  | .hbm, ⟨43, _⟩ => ⟨S4x16x4096x1, .i1⟩
  | .hbm, ⟨44, _⟩ => ⟨S_, .i1⟩
  | .hbm, ⟨45, _⟩ => ⟨S4x16x4096, .i1⟩
  | .hbm, ⟨46, _⟩ => ⟨S4x16x4096x64, .f32⟩
  | .hbm, ⟨47, _⟩ => ⟨S4x16x4096x64, .i1⟩
  | .hbm, ⟨48, _⟩ => ⟨S_, .f32⟩
  | .hbm, ⟨49, _⟩ => ⟨S4x16x4096x64, .f32⟩
  | .hbm, ⟨50, _⟩ => ⟨S4x16x4096x64, .f32⟩
  | .hbm, ⟨51, _⟩ => ⟨S4x16x4096x1, .i32⟩
  | .hbm, ⟨52, _⟩ => ⟨S_, .i32⟩
  | .hbm, ⟨53, _⟩ => ⟨S4x16x4096x1, .i32⟩
  | .hbm, ⟨54, _⟩ => ⟨S4x16x4096x1, .i1⟩
  | .hbm, ⟨55, _⟩ => ⟨S_, .i32⟩
  | .hbm, ⟨56, _⟩ => ⟨S4x16x4096x1, .i32⟩
  | .hbm, ⟨57, _⟩ => ⟨S4x16x4096x1, .i32⟩
  | .hbm, ⟨58, _⟩ => ⟨S4x16x4096x1, .i32⟩
  | .hbm, ⟨59, _⟩ => ⟨S1, .i32⟩
  | .hbm, ⟨60, _⟩ => ⟨S_, .i32⟩
  | .hbm, ⟨61, _⟩ => ⟨S4x16x4096x1, .i32⟩
  | .hbm, ⟨62, _⟩ => ⟨S4x16x4096x1, .i1⟩
  | .hbm, ⟨63, _⟩ => ⟨S1x1x1x1, .i32⟩
  | .hbm, ⟨64, _⟩ => ⟨S4x16x4096x1, .i32⟩
  | .hbm, ⟨65, _⟩ => ⟨S4x16x4096x1, .i1⟩
  | .hbm, ⟨66, _⟩ => ⟨S4x16x4096x1, .i1⟩
  | .hbm, ⟨67, _⟩ => ⟨S_, .i1⟩
  | .hbm, ⟨68, _⟩ => ⟨S4x16x4096, .i1⟩
  | .hbm, ⟨69, _⟩ => ⟨S4x16x4096x64, .f32⟩
  | .hbm, ⟨70, _⟩ => ⟨S4x16x4096x64, .i1⟩
  | .hbm, ⟨71, _⟩ => ⟨S_, .f32⟩
  | .hbm, ⟨72, _⟩ => ⟨S4x16x4096x64, .f32⟩
  | .hbm, ⟨73, _⟩ => ⟨S4x16x4096x64, .f32⟩
  | .hbm, ⟨74, _⟩ => ⟨S4096x64x64, .f32⟩
  | .hbm, ⟨75, _⟩ => ⟨S4096x64x64, .bf16⟩
  | .hbm, ⟨76, _⟩ => ⟨S4096x64x64, .f32⟩
  | .hbm, ⟨77, _⟩ => ⟨S4096x64x64, .bf16⟩
  | .hbm, ⟨78, _⟩ => ⟨S4096x64x64, .f32⟩
  | .hbm, ⟨79, _⟩ => ⟨S4096x64x64, .bf16⟩
  | .hbm, ⟨80, _⟩ => ⟨S4096x64x64, .f32⟩
  | .hbm, ⟨81, _⟩ => ⟨S4x16x4096x64, .f32⟩
  | .hbm, ⟨82, _⟩ => ⟨S4x16x4096, .i32⟩
  | .hbm, ⟨83, _⟩ => ⟨S4x16x4096, .i32⟩
  | .hbm, ⟨84, _⟩ => ⟨S4x16x4096, .i32⟩
  | .hbm, ⟨85, _⟩ => ⟨S4x16x4096x1, .i32⟩
  | .hbm, ⟨86, _⟩ => ⟨S_, .i32⟩
  | .hbm, ⟨87, _⟩ => ⟨S4x16x4096x1, .i32⟩
  | .hbm, ⟨88, _⟩ => ⟨S4x16x4096x1, .i1⟩
  | .hbm, ⟨89, _⟩ => ⟨S_, .i32⟩
  | .hbm, ⟨90, _⟩ => ⟨S4x16x4096x1, .i32⟩
  | .hbm, ⟨91, _⟩ => ⟨S4x16x4096x1, .i32⟩
  | .hbm, ⟨92, _⟩ => ⟨S4x16x4096x1, .i32⟩
  | .hbm, ⟨93, _⟩ => ⟨S1, .i32⟩
  | .hbm, ⟨94, _⟩ => ⟨S_, .i32⟩
  | .hbm, ⟨95, _⟩ => ⟨S4x16x4096x1, .i32⟩
  | .hbm, ⟨96, _⟩ => ⟨S4x16x4096x1, .i1⟩
  | .hbm, ⟨97, _⟩ => ⟨S1x1x1x1, .i32⟩
  | .hbm, ⟨98, _⟩ => ⟨S4x16x4096x1, .i32⟩
  | .hbm, ⟨99, _⟩ => ⟨S4x16x4096x1, .i1⟩
  | .hbm, ⟨100, _⟩ => ⟨S4x16x4096x1, .i1⟩
  | .hbm, ⟨101, _⟩ => ⟨S_, .i1⟩
  | .hbm, ⟨102, _⟩ => ⟨S4x16x4096, .i1⟩
  | .hbm, ⟨103, _⟩ => ⟨S4x16x4096x64, .f32⟩
  | .hbm, ⟨104, _⟩ => ⟨S4x16x4096x64, .i1⟩
  | .hbm, ⟨105, _⟩ => ⟨S_, .f32⟩
  | .hbm, ⟨106, _⟩ => ⟨S4x16x4096x64, .f32⟩
  | .hbm, ⟨107, _⟩ => ⟨S4x16x4096x64, .f32⟩
  | .local _ .vmem, ⟨0, _⟩ => ⟨S128x64x64, .bf16⟩
  | .local _ .vmem, ⟨1, _⟩ => ⟨S128x64x64, .bf16⟩
  | .local _ .vmem, ⟨2, _⟩ => ⟨S128x64x64, .bf16⟩
  | .local _ .vmem, ⟨3, _⟩ => ⟨S128x64x64, .bf16⟩
  | .local _ .vmem, ⟨4, _⟩ => ⟨S128x64x64, .bf16⟩
  | .local _ .vmem, ⟨5, _⟩ => ⟨S128x64x64, .bf16⟩
  | .local _ .vmem, ⟨6, _⟩ => ⟨S128x64x64, .f32⟩
  | .local _ .vmem, ⟨7, _⟩ => ⟨S128x64x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_c_2 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_c_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_call3_v0 : Ref sig .tc := ⟨.hbm, 82, rfl⟩
abbrev main_call3_v1_0 : Ref sig .tc := ⟨.hbm, 83, rfl⟩
abbrev main_v14 : Ref sig .tc := ⟨.hbm, 84, rfl⟩
abbrev main_v15 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_c_1 : Ref sig .tc := ⟨.hbm, 93, rfl⟩
abbrev main_call4_c_2 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_c_3 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_cst : Ref sig .tc := ⟨.hbm, 105, rfl⟩
abbrev main_call4_v14 : Ref sig .tc := ⟨.hbm, 106, rfl⟩
abbrev main_v16 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S1_S1x1x1x1_3 : S1.BroadcastsInDim S1x1x1x1 (![3] : Fin 1 → Fin S1x1x1x1.rank)
  bcast_S1x1x1x1_S4x16x4096x1_0_1_2_3 : S1x1x1x1.BroadcastsInDim S4x16x4096x1 (![0, 1, 2, 3] : Fin 4 → Fin S4x16x4096x1.rank)
  reducesTo_S4x16x4096x1_S4x16x4096_d3 : S4x16x4096x1.ReducesTo [3] S4x16x4096
  h_S_ : 0 < S_.numel
  bcast_S4x16x4096_S4x16x4096x64_0_1_2 : S4x16x4096.BroadcastsInDim S4x16x4096x64 (![0, 1, 2] : Fin 3 → Fin S4x16x4096x64.rank)
  bcast_S_S4x16x4096x64 : S_.BroadcastsInDim S4x16x4096x64 (![] : Fin 0 → Fin S4x16x4096x64.rank)
  shapeCasts_S4x16x4096x64_S4096x64x64 : S4x16x4096x64.ShapeCasts S4096x64x64
  bitsLt_bf16_f32 : FTy.bits .bf16 < FTy.bits .f32
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  shapeCasts_S4096x64x64_S4x16x4096x64 : S4096x64x64.ShapeCasts S4x16x4096x64
  gather_S4x16x4096x64_S4x16x4096x1_S4x16x4096x64_3_2_01_01_2_3_11164_wf : GatherDims.WF S4x16x4096x64 S4x16x4096x1 S4x16x4096x64 [3] [2] [0, 1] [2] [0, 1] 3 ![1, 1, 1, 64]
  dot_S128x64x64_S128x64x64_S128x64x64_2_2_1_1_0_0_wf : DotDims.WF S128x64x64 S128x64x64 S128x64x64 [2] [2] [1] [1] [0] [0]
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .bf16 = 32 ∨ (Rect.block (s := S4096x64x64) S128x64x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .bf16 = 32 ∨ (Rect.block (s := S4096x64x64) S128x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S4096x64x64.size a
  hwx0_2 : ∀ i : grid0.Coords, EltTy.bits .bf16 = 32 ∨ (Rect.block (s := S4096x64x64) S128x64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x64.size a ≤ S4096x64x64.size a
  hwx0_3 : ∀ i : grid0.Coords, EltTy.bits .f32 = 32 ∨ (Rect.block (s := S4096x64x64) S128x64x64.size (cc0_transform_3 i) (hinb0_3 i)).WholeWords (EltTy.packing .f32)

variable [Facts₀]

def gather_S4x16x4096x64_S4x16x4096x1_S4x16x4096x64_3_2_01_01_2_3_11164 : GatherDims S4x16x4096x64 S4x16x4096x1 S4x16x4096x64 where
  offsetDims := [3]
  collapsedSliceDims := [2]
  operandBatchingDims := [0, 1]
  startIndicesBatchingDims := [0, 1]
  startIndexMap := [2]
  indexVectorDim := 3
  sliceSizes := ![1, 1, 1, 64]
  wf := gather_S4x16x4096x64_S4x16x4096x1_S4x16x4096x64_3_2_01_01_2_3_11164_wf
def dot_S128x64x64_S128x64x64_S128x64x64_2_2_1_1_0_0 : DotDims S128x64x64 S128x64x64 S128x64x64 where
  lhsContracting := [2]
  rhsContracting := [2]
  lhsNonContracting := [1]
  rhsNonContracting := [1]
  lhsBatch := [0]
  rhsBatch := [0]
  wf := dot_S128x64x64_S128x64x64_S128x64x64_2_2_1_1_0_0_wf
def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf
def comparator_i32_i32_d2 : BitVec 32 × BitVec 32 → BitVec 32 × BitVec 32 → BitVec 1 :=
  fun l r =>
    let v2 := IntOp.cmpi .slt l.1 r.1
    v2

abbrev win0_0 : Pipeline.Window sig grid0 :=
  Pipeline.Window.ofSpec (Memref.whole main_v7) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x16x4096 : Shape := ⟨3, ![4, 16, 4096]⟩
abbrev S4x16x4096x1 : Shape := ⟨4, ![4, 16, 4096, 1]⟩
abbrev S_ : Shape := ⟨0, ![]⟩
abbrev S1 : Shape := ⟨1, ![1]⟩
abbrev S1x1x1x1 : Shape := ⟨4, ![1, 1, 1, 1]⟩
abbrev S4096x64x64 : Shape := ⟨3, ![4096, 64, 64]⟩

abbrev nBuf : Space → Nat
  | .hbm => 107
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096, .i32⟩
  | .hbm, ⟨4, _⟩ => ⟨S4x16x4096, .i32⟩
  | .hbm, ⟨5, _⟩ => ⟨S4x16x4096x1, .i32⟩
  | .hbm, ⟨6, _⟩ => ⟨S_, .i32⟩
  | .hbm, ⟨7, _⟩ => ⟨S4x16x4096x1, .i32⟩
  | .hbm, ⟨8, _⟩ => ⟨S4x16x4096x1, .i1⟩
  | .hbm, ⟨9, _⟩ => ⟨S_, .i32⟩
  | .hbm, ⟨10, _⟩ => ⟨S4x16x4096x1, .i32⟩
  | .hbm, ⟨11, _⟩ => ⟨S4x16x4096x1, .i32⟩
  | .hbm, ⟨12, _⟩ => ⟨S4x16x4096x1, .i32⟩
  | .hbm, ⟨13, _⟩ => ⟨S1, .i32⟩
  | .hbm, ⟨14, _⟩ => ⟨S_, .i32⟩
  | .hbm, ⟨15, _⟩ => ⟨S4x16x4096x1, .i32⟩
  | .hbm, ⟨16, _⟩ => ⟨S4x16x4096x1, .i1⟩
  | .hbm, ⟨17, _⟩ => ⟨S1x1x1x1, .i32⟩
  | .hbm, ⟨18, _⟩ => ⟨S4x16x4096x1, .i32⟩
  | .hbm, ⟨19, _⟩ => ⟨S4x16x4096x1, .i1⟩
  | .hbm, ⟨20, _⟩ => ⟨S4x16x4096x1, .i1⟩
  | .hbm, ⟨21, _⟩ => ⟨S_, .i1⟩
  | .hbm, ⟨22, _⟩ => ⟨S4x16x4096, .i1⟩
  | .hbm, ⟨23, _⟩ => ⟨S4x16x4096x64, .f32⟩
  | .hbm, ⟨24, _⟩ => ⟨S4x16x4096x64, .i1⟩
  | .hbm, ⟨25, _⟩ => ⟨S_, .f32⟩
  | .hbm, ⟨26, _⟩ => ⟨S4x16x4096x64, .f32⟩
  | .hbm, ⟨27, _⟩ => ⟨S4x16x4096x64, .f32⟩
  | .hbm, ⟨28, _⟩ => ⟨S4x16x4096x1, .i32⟩
  | .hbm, ⟨29, _⟩ => ⟨S_, .i32⟩
  | .hbm, ⟨30, _⟩ => ⟨S4x16x4096x1, .i32⟩
  | .hbm, ⟨31, _⟩ => ⟨S4x16x4096x1, .i1⟩
  | .hbm, ⟨32, _⟩ => ⟨S_, .i32⟩
  | .hbm, ⟨33, _⟩ => ⟨S4x16x4096x1, .i32⟩
  | .hbm, ⟨34, _⟩ => ⟨S4x16x4096x1, .i32⟩
  | .hbm, ⟨35, _⟩ => ⟨S4x16x4096x1, .i32⟩
  | .hbm, ⟨36, _⟩ => ⟨S1, .i32⟩
  | .hbm, ⟨37, _⟩ => ⟨S_, .i32⟩
  | .hbm, ⟨38, _⟩ => ⟨S4x16x4096x1, .i32⟩
  | .hbm, ⟨39, _⟩ => ⟨S4x16x4096x1, .i1⟩
  | .hbm, ⟨40, _⟩ => ⟨S1x1x1x1, .i32⟩
  | .hbm, ⟨41, _⟩ => ⟨S4x16x4096x1, .i32⟩
  | .hbm, ⟨42, _⟩ => ⟨S4x16x4096x1, .i1⟩
  | .hbm, ⟨43, _⟩ => ⟨S4x16x4096x1, .i1⟩
  | .hbm, ⟨44, _⟩ => ⟨S_, .i1⟩
  | .hbm, ⟨45, _⟩ => ⟨S4x16x4096, .i1⟩
  | .hbm, ⟨46, _⟩ => ⟨S4x16x4096x64, .f32⟩
  | .hbm, ⟨47, _⟩ => ⟨S4x16x4096x64, .i1⟩
  | .hbm, ⟨48, _⟩ => ⟨S_, .f32⟩
  | .hbm, ⟨49, _⟩ => ⟨S4x16x4096x64, .f32⟩
  | .hbm, ⟨50, _⟩ => ⟨S4x16x4096x64, .f32⟩
  | .hbm, ⟨51, _⟩ => ⟨S4x16x4096x1, .i32⟩
  | .hbm, ⟨52, _⟩ => ⟨S_, .i32⟩
  | .hbm, ⟨53, _⟩ => ⟨S4x16x4096x1, .i32⟩
  | .hbm, ⟨54, _⟩ => ⟨S4x16x4096x1, .i1⟩
  | .hbm, ⟨55, _⟩ => ⟨S_, .i32⟩
  | .hbm, ⟨56, _⟩ => ⟨S4x16x4096x1, .i32⟩
  | .hbm, ⟨57, _⟩ => ⟨S4x16x4096x1, .i32⟩
  | .hbm, ⟨58, _⟩ => ⟨S4x16x4096x1, .i32⟩
  | .hbm, ⟨59, _⟩ => ⟨S1, .i32⟩
  | .hbm, ⟨60, _⟩ => ⟨S_, .i32⟩
  | .hbm, ⟨61, _⟩ => ⟨S4x16x4096x1, .i32⟩
  | .hbm, ⟨62, _⟩ => ⟨S4x16x4096x1, .i1⟩
  | .hbm, ⟨63, _⟩ => ⟨S1x1x1x1, .i32⟩
  | .hbm, ⟨64, _⟩ => ⟨S4x16x4096x1, .i32⟩
  | .hbm, ⟨65, _⟩ => ⟨S4x16x4096x1, .i1⟩
  | .hbm, ⟨66, _⟩ => ⟨S4x16x4096x1, .i1⟩
  | .hbm, ⟨67, _⟩ => ⟨S_, .i1⟩
  | .hbm, ⟨68, _⟩ => ⟨S4x16x4096, .i1⟩
  | .hbm, ⟨69, _⟩ => ⟨S4x16x4096x64, .f32⟩
  | .hbm, ⟨70, _⟩ => ⟨S4x16x4096x64, .i1⟩
  | .hbm, ⟨71, _⟩ => ⟨S_, .f32⟩
  | .hbm, ⟨72, _⟩ => ⟨S4x16x4096x64, .f32⟩
  | .hbm, ⟨73, _⟩ => ⟨S4x16x4096x64, .f32⟩
  | .hbm, ⟨74, _⟩ => ⟨S4096x64x64, .f32⟩
  | .hbm, ⟨75, _⟩ => ⟨S4096x64x64, .f32⟩
  | .hbm, ⟨76, _⟩ => ⟨S4096x64x64, .f32⟩
  | .hbm, ⟨77, _⟩ => ⟨S4096x64x64, .f32⟩
  | .hbm, ⟨78, _⟩ => ⟨S4096x64x64, .f32⟩
  | .hbm, ⟨79, _⟩ => ⟨S4096x64x64, .f32⟩
  | .hbm, ⟨80, _⟩ => ⟨S4x16x4096x64, .f32⟩
  | .hbm, ⟨81, _⟩ => ⟨S4x16x4096, .i32⟩
  | .hbm, ⟨82, _⟩ => ⟨S4x16x4096, .i32⟩
  | .hbm, ⟨83, _⟩ => ⟨S4x16x4096, .i32⟩
  | .hbm, ⟨84, _⟩ => ⟨S4x16x4096x1, .i32⟩
  | .hbm, ⟨85, _⟩ => ⟨S_, .i32⟩
  | .hbm, ⟨86, _⟩ => ⟨S4x16x4096x1, .i32⟩
  | .hbm, ⟨87, _⟩ => ⟨S4x16x4096x1, .i1⟩
  | .hbm, ⟨88, _⟩ => ⟨S_, .i32⟩
  | .hbm, ⟨89, _⟩ => ⟨S4x16x4096x1, .i32⟩
  | .hbm, ⟨90, _⟩ => ⟨S4x16x4096x1, .i32⟩
  | .hbm, ⟨91, _⟩ => ⟨S4x16x4096x1, .i32⟩
  | .hbm, ⟨92, _⟩ => ⟨S1, .i32⟩
  | .hbm, ⟨93, _⟩ => ⟨S_, .i32⟩
  | .hbm, ⟨94, _⟩ => ⟨S4x16x4096x1, .i32⟩
  | .hbm, ⟨95, _⟩ => ⟨S4x16x4096x1, .i1⟩
  | .hbm, ⟨96, _⟩ => ⟨S1x1x1x1, .i32⟩
  | .hbm, ⟨97, _⟩ => ⟨S4x16x4096x1, .i32⟩
  | .hbm, ⟨98, _⟩ => ⟨S4x16x4096x1, .i1⟩
  | .hbm, ⟨99, _⟩ => ⟨S4x16x4096x1, .i1⟩
  | .hbm, ⟨100, _⟩ => ⟨S_, .i1⟩
  | .hbm, ⟨101, _⟩ => ⟨S4x16x4096, .i1⟩
  | .hbm, ⟨102, _⟩ => ⟨S4x16x4096x64, .f32⟩
  | .hbm, ⟨103, _⟩ => ⟨S4x16x4096x64, .i1⟩
  | .hbm, ⟨104, _⟩ => ⟨S_, .f32⟩
  | .hbm, ⟨105, _⟩ => ⟨S4x16x4096x64, .f32⟩
  | .hbm, ⟨106, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_c_2 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_c_3 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_call3_v0 : Ref sig .tc := ⟨.hbm, 81, rfl⟩
abbrev main_call3_v1_0 : Ref sig .tc := ⟨.hbm, 82, rfl⟩
abbrev main_v13 : Ref sig .tc := ⟨.hbm, 83, rfl⟩
abbrev main_v14 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_c_1 : Ref sig .tc := ⟨.hbm, 92, rfl⟩
abbrev main_call4_c_2 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_c_3 : Ref sig .tc := ⟨.hbm, 100, rfl⟩
abbrev main_call4_v11 : Ref sig .tc := ⟨.hbm, 101, rfl⟩
abbrev main_call4_v12 : Ref sig .tc := ⟨.hbm, 102, rfl⟩
abbrev main_call4_v13 : Ref sig .tc := ⟨.hbm, 103, rfl⟩
abbrev main_call4_cst : Ref sig .tc := ⟨.hbm, 104, rfl⟩
abbrev main_call4_v14 : Ref sig .tc := ⟨.hbm, 105, rfl⟩
abbrev main_v15 : Ref sig .tc := ⟨.hbm, 106, rfl⟩

abbrev nD : Nat := 1
abbrev τ : Topo := Topo.v7x

variable {F : FTy → Type} [FloatOps F]

class Facts₀ : Prop where
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S1_S1x1x1x1_3 : S1.BroadcastsInDim S1x1x1x1 (![3] : Fin 1 → Fin S1x1x1x1.rank)
  bcast_S1x1x1x1_S4x16x4096x1_0_1_2_3 : S1x1x1x1.BroadcastsInDim S4x16x4096x1 (![0, 1, 2, 3] : Fin 4 → Fin S4x16x4096x1.rank)
  reducesTo_S4x16x4096x1_S4x16x4096_d3 : S4x16x4096x1.ReducesTo [3] S4x16x4096
  h_S_ : 0 < S_.numel
  bcast_S4x16x4096_S4x16x4096x64_0_1_2 : S4x16x4096.BroadcastsInDim S4x16x4096x64 (![0, 1, 2] : Fin 3 → Fin S4x16x4096x64.rank)
  bcast_S_S4x16x4096x64 : S_.BroadcastsInDim S4x16x4096x64 (![] : Fin 0 → Fin S4x16x4096x64.rank)
  shapeCasts_S4x16x4096x64_S4096x64x64 : S4x16x4096x64.ShapeCasts S4096x64x64
  shapeCasts_S4096x64x64_S4x16x4096x64 : S4096x64x64.ShapeCasts S4x16x4096x64
  gather_S4x16x4096x64_S4x16x4096x1_S4x16x4096x64_3_2_01_01_2_3_11164_wf : GatherDims.WF S4x16x4096x64 S4x16x4096x1 S4x16x4096x64 [3] [2] [0, 1] [2] [0, 1] 3 ![1, 1, 1, 64]
  dot_S4096x64x64_S4096x64x64_S4096x64x64_2_2_1_1_0_0_wf : DotDims.WF S4096x64x64 S4096x64x64 S4096x64x64 [2] [2] [1] [1] [0] [0]
  dot_S4096x64x64_S4096x64x64_S4096x64x64_2_1_1_2_0_0_wf : DotDims.WF S4096x64x64 S4096x64x64 S4096x64x64 [2] [1] [1] [2] [0] [0]

variable [Facts₀]

def gather_S4x16x4096x64_S4x16x4096x1_S4x16x4096x64_3_2_01_01_2_3_11164 : GatherDims S4x16x4096x64 S4x16x4096x1 S4x16x4096x64 where
  offsetDims := [3]
  collapsedSliceDims := [2]
  operandBatchingDims := [0, 1]
  startIndicesBatchingDims := [0, 1]
  startIndexMap := [2]
  indexVectorDim := 3
  sliceSizes := ![1, 1, 1, 64]
  wf := gather_S4x16x4096x64_S4x16x4096x1_S4x16x4096x64_3_2_01_01_2_3_11164_wf
def dot_S4096x64x64_S4096x64x64_S4096x64x64_2_2_1_1_0_0 : DotDims S4096x64x64 S4096x64x64 S4096x64x64 where
  lhsContracting := [2]
  rhsContracting := [2]
  lhsNonContracting := [1]
  rhsNonContracting := [1]
  lhsBatch := [0]
  rhsBatch := [0]
  wf := dot_S4096x64x64_S4096x64x64_S4096x64x64_2_2_1_1_0_0_wf
def dot_S4096x64x64_S4096x64x64_S4096x64x64_2_1_1_2_0_0 : DotDims S4096x64x64 S4096x64x64 S4096x64x64 where
  lhsContracting := [2]
  rhsContracting := [1]
  lhsNonContracting := [1]
  rhsNonContracting := [2]
  lhsBatch := [0]
  rhsBatch := [0]
  wf := dot_S4096x64x64_S4096x64x64_S4096x64x64_2_1_1_2_0_0_wf
def comparator_i32_i32_d2 : BitVec 32 × BitVec 32 → BitVec 32 × BitVec 32 → BitVec 1 :=
  fun l r =>
    let v2 := IntOp.cmpi .slt l.1 r.1
    v2

class Facts : Prop extends Facts₀ where

variable [Facts]
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.BucketAttention.lean ====
/-
  Unnormalised attention inside buckets, on the extended reals.

  The arrays are `n` buckets, each a 64 × 64 matrix: queries `q`, keys `k`, values `w`. Inside bucket `p` the score of
  query row `r` against key row `j` is the inner product  s(p, r, j) = Σ_d q(p, r, d) · k(p, j, d),  its weight is
  exp s(p, r, j), and the result's entry is the weighted sum of the value rows

      out(p, r, v) = Σ_j exp (Σ_d q(p, r, d) · k(p, j, d)) · w(p, j, v).

  No row is normalised and buckets never mix: entry (p, r, v) reads bucket `p` of the three arrays only. That last
  fact is what lets a run over consecutive groups of buckets be read as one run over all of them.

  Two ways of computing it are read here at an index, both exact on the extended reals (a change of float format is
  the identity there, and a matrix product into a zero accumulator is the plain sum of products):
  the vector unit's two matrix products with the exponential between them, and the host's two general dot products.
  Each takes, as hypotheses, what its dimension numbers say about the operands' indices: both products keep the
  bucket axis, the first contracts the last axis of both operands, the second the last axis of the weights with the
  row axis of the values.
-/
import Idealize.ShloMosaic.PureOps.Ideal.Laws
import Idealize.ShloMosaic.Lib.ValueIdx
import proofs.«101947_j90675349553507_1_alg».proof.Proof.LibIndexReads

noncomputable section

namespace Cert.BucketAttention

open Idealize.ShloMosaic Idealize.ShloMosaic.ValueIdx

/-- `n` buckets, each a 64 × 64 matrix. -/
abbrev Buckets (n : ℕ) : Shape := ⟨3, ![n, 64, 64]⟩

/-- Entry `(r, v)` of bucket `p`: the value rows of the bucket weighted by the exponentials of the scores of query
    row `r` against the bucket's key rows. -/
def entry {n : ℕ} (q k w : (Buckets n).Idx → EReal) (p : Fin n) (r v : Fin 64) : EReal :=
  ∑ j : Fin 64, Ideal.exp (∑ d : Fin 64, q (ix3 p r d) * k (ix3 p j d)) * w (ix3 p j v)

/-- The whole result array, index by index. -/
def attn {n : ℕ} (q k w : (Buckets n).Idx → EReal) : (Buckets n).Idx → EReal := fun i =>
  entry q k w ⟨(i 0).val, (i 0).isLt⟩ ⟨(i 1).val, (i 1).isLt⟩ ⟨(i 2).val, (i 2).isLt⟩

/-- The array read at coordinates. -/
theorem attn_ix3 {n : ℕ} (q k w : (Buckets n).Idx → EReal) (p : Fin n) (r v : Fin 64) :
    attn q k w (ix3 p r v) = entry q k w p r v := rfl

/-- An entry depends on its own bucket only: if two triples of arrays, over possibly different numbers of buckets,
    agree on bucket `p'` of the one and bucket `p` of the other, the entries there are equal. -/
theorem entry_congr {n n' : ℕ} (q k w : (Buckets n).Idx → EReal) (q' k' w' : (Buckets n').Idx → EReal)
    (p : Fin n) (p' : Fin n')
    (hq : ∀ a b : Fin 64, q' (ix3 p' a b) = q (ix3 p a b)) (hk : ∀ a b : Fin 64, k' (ix3 p' a b) = k (ix3 p a b))
    (hw : ∀ a b : Fin 64, w' (ix3 p' a b) = w (ix3 p a b)) (r v : Fin 64) :
    entry q' k' w' p' r v = entry q k w p r v := by
  unfold entry
  refine Finset.sum_congr rfl fun j _ => ?_
  rw [hw j v]
  refine congrArg (fun s => Ideal.exp s * w (ix3 p j v)) ?_
  exact Finset.sum_congr rfl fun d _ => by rw [hq r d, hk j d]

/-- A host dot product contracting one axis of extent `n`, read at an output index: the sum over that axis of the
    operands' products, the operands read where the dimension numbers say (`hL`, `hR`). The host's companion of the
    vector unit's product into a zero accumulator. -/
theorem dotGeneral_single {sl sr so : Shape} {φ₁ φ₂ : FTy} (d : DotDims sl sr so) (n : Nat) (hr : d.contr.rank = 1)
    (hs : d.contr.size ⟨0, by omega⟩ = n) (prec : Option ContractPrecision) (sched : HostSchedule)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.dotGeneral d prec sched lhs rhs j = ∑ k : Fin n, lhs (L k) * rhs (R k) := by
  rw [Ideal.dotGeneral_apply, ← Equiv.sum_comp (contrEquiv1 d n hr hs).symm]
  exact Finset.sum_congr rfl fun k _ => by rw [hL k, hR k]

section TwoProducts

variable {n : ℕ} (d1 d2 : DotDims (Buckets n) (Buckets n) (Buckets n))
  (hr1 : d1.contr.rank = 1) (hs1 : d1.contr.size ⟨0, by omega⟩ = 64)
  (hr2 : d2.contr.rank = 1) (hs2 : d2.contr.size ⟨0, by omega⟩ = 64)
  -- the scores: bucket and query row from the output, the contracted column on both operands, the key row the output's column
  (hL1 : ∀ (p : Fin n) (r j d : Fin 64), d1.lhsIdx (ix3 p r j) ((contrEquiv1 d1 64 hr1 hs1).symm d) = ix3 p r d)
  (hR1 : ∀ (p : Fin n) (r j d : Fin 64), d1.rhsIdx (ix3 p r j) ((contrEquiv1 d1 64 hr1 hs1).symm d) = ix3 p j d)
  -- the mix: the weights' column is contracted against the values' row
  (hL2 : ∀ (p : Fin n) (r v j : Fin 64), d2.lhsIdx (ix3 p r v) ((contrEquiv1 d2 64 hr2 hs2).symm j) = ix3 p r j)
  (hR2 : ∀ (p : Fin n) (r v j : Fin 64), d2.rhsIdx (ix3 p r v) ((contrEquiv1 d2 64 hr2 hs2).symm j) = ix3 p j v)

include hL1 hR1 hL2 hR2

/-- The vector unit's form: scores by a matrix product into zero, their exponentials narrowed to the 16-bit format
    (the identity on the extended reals), then the mix by a second product into zero. -/
theorem matmuls_entry {φ₁ φ₂ φ₃ : FTy} (hb : FTy.bf16.bits < FTy.f32.bits)
    (q : FVec Ideal (Buckets n) φ₁) (k : FVec Ideal (Buckets n) φ₂) (w : FVec Ideal (Buckets n) φ₃)
    (p : Fin n) (r v : Fin 64) :
    matmul d2 none (truncf .bf16 (exp (matmul d1 none q k (constant (F := Ideal) (Buckets n) .f32 0x00000000#32))) hb) w
        (constant (F := Ideal) (Buckets n) .f32 0x00000000#32) (ix3 p r v)
      = entry q k w p r v := by
  refine (Cert.IndexReads.matmul_zero_single d2 64 hr2 hs2 none _ w (ix3 p r v) (fun j => ix3 p r j) (fun j => ix3 p j v)
    (hL2 p r v) (hR2 p r v)).trans ?_
  unfold entry
  refine Finset.sum_congr rfl fun j _ => ?_
  refine congrArg (fun s => Ideal.exp s * w (ix3 p j v)) ?_
  exact Cert.IndexReads.matmul_zero_single d1 64 hr1 hs1 none q k (ix3 p r j) (fun d => ix3 p r d) (fun d => ix3 p j d)
    (hL1 p r j) (hR1 p r j)

/-- The host's form: scores by a general dot product, the host's exponential, the mix by a second dot product. -/
theorem dots_entry {φ₁ φ₂ φ₃ : FTy}
    (q : FVec Ideal (Buckets n) φ₁) (k : FVec Ideal (Buckets n) φ₂) (w : FVec Ideal (Buckets n) φ₃)
    (p : Fin n) (r v : Fin 64) :
    Host.dotGeneral d2 none (Host.exp (Host.dotGeneral d1 none q k)) w (ix3 p r v) = entry q k w p r v := by
  refine (dotGeneral_single d2 64 hr2 hs2 none .single _ w (ix3 p r v) (fun j => ix3 p r j) (fun j => ix3 p j v)
    (hL2 p r v) (hR2 p r v)).trans ?_
  unfold entry
  refine Finset.sum_congr rfl fun j _ => ?_
  refine congrArg (fun s => Ideal.exp s * w (ix3 p j v)) ?_
  exact dotGeneral_single d1 64 hr1 hs1 none .single q k (ix3 p r j) (fun d => ix3 p r d) (fun d => ix3 p j d)
    (hL1 p r j) (hR1 p r j)

end TwoProducts

end Cert.BucketAttention

end
-- ==== Proof.KernelBlock.lean ====
/-
  One grid point of the kernel, as a value. The body loads three blocks of 128 buckets (queries, keys, values, each
  bucket 64 × 64), multiplies queries by transposed keys bucket by bucket into a zero accumulator, exponentiates,
  narrows to the 16-bit format, multiplies by the values into a zero accumulator, and stores the result whole. On the
  extended reals that stored value is the unnormalised bucket attention of the three loaded blocks:

      stored(p, r, v) = Σ_j exp (Σ_d q(p, r, d) · k(p, j, d)) · w(p, j, v),      p < 128.

  First, what the two products' dimension numbers say about operand indices (both keep the bucket axis; the scores
  contract the last axis of both operands; the mix contracts the weights' last axis with the values' row axis).
-/
import proofs.«101947_j90675349553507_1_alg».proof.Proof.Gen.KernelIdeal.Skeleton
import proofs.«101947_j90675349553507_1_alg».proof.Proof.BucketAttention
import Idealize.ShloMosaic.Lib.Pipeline.Value

noncomputable section

namespace Cert.KernelIdeal.BlockValue

open Cert.KernelIdeal Cert.KernelIdeal.Gen Idealize.ShloMosaic Idealize.ShloMosaic.ValueIdx Cert.BucketAttention

/-- The scores' left operand at output `(p, r, j)` and contraction position `c`: query row `r` of bucket `p`, column `c`. -/
theorem scores_lhs (p : Fin 128) (r j c : Fin 64) :
    dot_S128x64x64_S128x64x64_S128x64x64_2_2_1_1_0_0.lhsIdx (ix3 p r j) ((contrEquiv1 dot_S128x64x64_S128x64x64_S128x64x64_2_2_1_1_0_0 64 rfl rfl).symm c) = ix3 p r c := by
  have hc := contrEquiv1_symm_val dot_S128x64x64_S128x64x64_S128x64x64_2_2_1_1_0_0 64 rfl rfl c
  funext a; apply Fin.ext
  match a with
  | ⟨0, _⟩ =>
    show (dot_S128x64x64_S128x64x64_S128x64x64_2_2_1_1_0_0.lhsIdx (ix3 p r j) _ 0).val = (p).val
    unfold DotDims.lhsIdx
    rw [dif_pos (show (0 : Fin S128x64x64.rank) ∈ dot_S128x64x64_S128x64x64_S128x64x64_2_2_1_1_0_0.lhsBatch by decide)]
    rfl
  | ⟨1, _⟩ =>
    show (dot_S128x64x64_S128x64x64_S128x64x64_2_2_1_1_0_0.lhsIdx (ix3 p r j) _ 1).val = (r).val
    unfold DotDims.lhsIdx
    rw [dif_neg (show ¬(1 : Fin S128x64x64.rank) ∈ dot_S128x64x64_S128x64x64_S128x64x64_2_2_1_1_0_0.lhsBatch by decide), dif_pos (show (1 : Fin S128x64x64.rank) ∈ dot_S128x64x64_S128x64x64_S128x64x64_2_2_1_1_0_0.lhsNonContracting by decide)]
    rfl
  | ⟨2, _⟩ =>
    show (dot_S128x64x64_S128x64x64_S128x64x64_2_2_1_1_0_0.lhsIdx (ix3 p r j) _ 2).val = (c).val
    exact (dot_S128x64x64_S128x64x64_S128x64x64_2_2_1_1_0_0.lhsIdx_val_of_single rfl _ _).trans hc

/-- The scores' right operand there: key row `j` of bucket `p`, column `c`. -/
theorem scores_rhs (p : Fin 128) (r j c : Fin 64) :
    dot_S128x64x64_S128x64x64_S128x64x64_2_2_1_1_0_0.rhsIdx (ix3 p r j) ((contrEquiv1 dot_S128x64x64_S128x64x64_S128x64x64_2_2_1_1_0_0 64 rfl rfl).symm c) = ix3 p j c := by
  have hc := contrEquiv1_symm_val dot_S128x64x64_S128x64x64_S128x64x64_2_2_1_1_0_0 64 rfl rfl c
  funext a; apply Fin.ext
  match a with
  | ⟨0, _⟩ =>
    show (dot_S128x64x64_S128x64x64_S128x64x64_2_2_1_1_0_0.rhsIdx (ix3 p r j) _ 0).val = (p).val
    unfold DotDims.rhsIdx
    rw [dif_pos (show (0 : Fin S128x64x64.rank) ∈ dot_S128x64x64_S128x64x64_S128x64x64_2_2_1_1_0_0.rhsBatch by decide)]
    rfl
  | ⟨1, _⟩ =>
    show (dot_S128x64x64_S128x64x64_S128x64x64_2_2_1_1_0_0.rhsIdx (ix3 p r j) _ 1).val = (j).val
    unfold DotDims.rhsIdx
    rw [dif_neg (show ¬(1 : Fin S128x64x64.rank) ∈ dot_S128x64x64_S128x64x64_S128x64x64_2_2_1_1_0_0.rhsBatch by decide), dif_pos (show (1 : Fin S128x64x64.rank) ∈ dot_S128x64x64_S128x64x64_S128x64x64_2_2_1_1_0_0.rhsNonContracting by decide)]
    rfl
  | ⟨2, _⟩ =>
    show (dot_S128x64x64_S128x64x64_S128x64x64_2_2_1_1_0_0.rhsIdx (ix3 p r j) _ 2).val = (c).val
    exact (dot_S128x64x64_S128x64x64_S128x64x64_2_2_1_1_0_0.rhsIdx_val_of_single rfl _ _).trans hc

/-- The mix's left operand at output `(p, r, v)` and contraction position `c`: the weight of query row `r` against key row `c`. -/
theorem mix_lhs (p : Fin 128) (r v c : Fin 64) :
    dot_S128x64x64_S128x64x64_S128x64x64_2_1_1_2_0_0.lhsIdx (ix3 p r v) ((contrEquiv1 dot_S128x64x64_S128x64x64_S128x64x64_2_1_1_2_0_0 64 rfl rfl).symm c) = ix3 p r c := by
  have hc := contrEquiv1_symm_val dot_S128x64x64_S128x64x64_S128x64x64_2_1_1_2_0_0 64 rfl rfl c
  funext a; apply Fin.ext
  match a with
  | ⟨0, _⟩ =>
    show (dot_S128x64x64_S128x64x64_S128x64x64_2_1_1_2_0_0.lhsIdx (ix3 p r v) _ 0).val = (p).val
    unfold DotDims.lhsIdx
    rw [dif_pos (show (0 : Fin S128x64x64.rank) ∈ dot_S128x64x64_S128x64x64_S128x64x64_2_1_1_2_0_0.lhsBatch by decide)]
    rfl
  | ⟨1, _⟩ =>
    show (dot_S128x64x64_S128x64x64_S128x64x64_2_1_1_2_0_0.lhsIdx (ix3 p r v) _ 1).val = (r).val
    unfold DotDims.lhsIdx
    rw [dif_neg (show ¬(1 : Fin S128x64x64.rank) ∈ dot_S128x64x64_S128x64x64_S128x64x64_2_1_1_2_0_0.lhsBatch by decide), dif_pos (show (1 : Fin S128x64x64.rank) ∈ dot_S128x64x64_S128x64x64_S128x64x64_2_1_1_2_0_0.lhsNonContracting by decide)]
    rfl
  | ⟨2, _⟩ =>
    show (dot_S128x64x64_S128x64x64_S128x64x64_2_1_1_2_0_0.lhsIdx (ix3 p r v) _ 2).val = (c).val
    exact (dot_S128x64x64_S128x64x64_S128x64x64_2_1_1_2_0_0.lhsIdx_val_of_single rfl _ _).trans hc

/-- The mix's right operand there: value row `c` of bucket `p`, column `v`. -/
theorem mix_rhs (p : Fin 128) (r v c : Fin 64) :
    dot_S128x64x64_S128x64x64_S128x64x64_2_1_1_2_0_0.rhsIdx (ix3 p r v) ((contrEquiv1 dot_S128x64x64_S128x64x64_S128x64x64_2_1_1_2_0_0 64 rfl rfl).symm c) = ix3 p c v := by
  have hc := contrEquiv1_symm_val dot_S128x64x64_S128x64x64_S128x64x64_2_1_1_2_0_0 64 rfl rfl c
  funext a; apply Fin.ext
  match a with
  | ⟨0, _⟩ =>
    show (dot_S128x64x64_S128x64x64_S128x64x64_2_1_1_2_0_0.rhsIdx (ix3 p r v) _ 0).val = (p).val
    unfold DotDims.rhsIdx
    rw [dif_pos (show (0 : Fin S128x64x64.rank) ∈ dot_S128x64x64_S128x64x64_S128x64x64_2_1_1_2_0_0.rhsBatch by decide)]
    rfl
  | ⟨1, _⟩ =>
    show (dot_S128x64x64_S128x64x64_S128x64x64_2_1_1_2_0_0.rhsIdx (ix3 p r v) _ 1).val = (c).val
    exact (dot_S128x64x64_S128x64x64_S128x64x64_2_1_1_2_0_0.rhsIdx_val_of_single rfl _ _).trans hc
  | ⟨2, _⟩ =>
    show (dot_S128x64x64_S128x64x64_S128x64x64_2_1_1_2_0_0.rhsIdx (ix3 p r v) _ 2).val = (v).val
    unfold DotDims.rhsIdx
    rw [dif_neg (show ¬(2 : Fin S128x64x64.rank) ∈ dot_S128x64x64_S128x64x64_S128x64x64_2_1_1_2_0_0.rhsBatch by decide), dif_pos (show (2 : Fin S128x64x64.rank) ∈ dot_S128x64x64_S128x64x64_S128x64x64_2_1_1_2_0_0.rhsNonContracting by decide)]
    rfl

/-- The body's stored value is the bucket attention of the three blocks it loaded (the casts of a block to its own
    shape are the identity). -/
theorem payload_eq (x0 x1 x2 : Vec Ideal S128x64x64 .bf16) :
    k0_pay1 (F := Ideal) x0 x1 x2 = attn (n := 128) x0 x1 x2 := by
  funext i
  obtain ⟨p, r, v, rfl⟩ : ∃ (p : Fin 128) (r v : Fin 64), i = ix3 p r v := ⟨i 0, i 1, i 2, eq_ix3 i⟩
  rw [attn_ix3]
  unfold k0_pay1
  simp only [shapeCast_self]
  exact matmuls_entry (n := 128) dot_S128x64x64_S128x64x64_S128x64x64_2_2_1_1_0_0 dot_S128x64x64_S128x64x64_S128x64x64_2_1_1_2_0_0
    rfl rfl rfl rfl scores_lhs scores_rhs mix_lhs mix_rhs bitsLt_bf16_f32 x0 x1 x2 p r v

end Cert.KernelIdeal.BlockValue

end
-- ==== Proof.KernelArray.lean ====
/-
  From grid points to the whole array. The grid has 32 points; point `t` fetches buckets 128·t … 128·t + 127 of the
  three operand arrays (4096 buckets each, 64 × 64 per bucket) and writes back the same buckets of the result. Since an
  entry of the bucket attention reads its own bucket only, what point `t` writes back is those buckets of the bucket
  attention of the WHOLE operand arrays; the 32 write-backs tile the result's 4096 buckets, so after the region the
  result array is the bucket attention of the operand arrays as the region found them.
-/
import proofs.«101947_j90675349553507_1_alg».proof.Proof.Gen.KernelIdeal.Frame
import proofs.«101947_j90675349553507_1_alg».proof.Proof.KernelBlock
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.BucketAttention
open Idealize.ShloMosaic.Pipeline (Dat)

/-! ## Where a point's blocks sit: decided over the 32 points -/

/-- Every window's block index at point `t` is `(b, 0, 0)` with the same `b ≤ 31` as the result's. -/
theorem idx_facts0 : ∀ t : Fin cfg0.N, win0_0.index t (0 : Fin 3) = win0_3.index t (0 : Fin 3)
    ∧ win0_0.index t (1 : Fin 3) = 0 ∧ win0_0.index t (2 : Fin 3) = 0 ∧ win0_3.index t (0 : Fin 3) ≤ 31 :=
  (by decide +kernel : ∀ t : Fin grid0.N, _)
theorem idx_facts1 : ∀ t : Fin cfg0.N, win0_1.index t (0 : Fin 3) = win0_3.index t (0 : Fin 3)
    ∧ win0_1.index t (1 : Fin 3) = 0 ∧ win0_1.index t (2 : Fin 3) = 0 ∧ win0_3.index t (0 : Fin 3) ≤ 31 :=
  (by decide +kernel : ∀ t : Fin grid0.N, _)
theorem idx_facts2 : ∀ t : Fin cfg0.N, win0_2.index t (0 : Fin 3) = win0_3.index t (0 : Fin 3)
    ∧ win0_2.index t (1 : Fin 3) = 0 ∧ win0_2.index t (2 : Fin 3) = 0 ∧ win0_3.index t (0 : Fin 3) ≤ 31 :=
  (by decide +kernel : ∀ t : Fin grid0.N, _)

theorem idx_facts3 : ∀ t : Fin cfg0.N, win0_3.index t (1 : Fin 3) = 0 ∧ win0_3.index t (2 : Fin 3) = 0 ∧ win0_3.index t (0 : Fin 3) ≤ 31 :=
  (by decide +kernel : ∀ t : Fin grid0.N, _)

/-- Every group of 128 buckets is some point's. -/
theorem idx_onto : ∀ b : Fin 32, ∃ t : Fin cfg0.N, win0_3.index t = ![b.val, 0, 0] :=
  (by decide +kernel : ∀ b : Fin 32, ∃ t : Fin grid0.N, win0_3.index t = ![b.val, 0, 0])

section AnyValues

variable {F : FTy → Type} [FloatOps F]
variable (m : (ℓ : Loc nD τ sig) → Buf (Elt F) ℓ)

/-! ## An input block is the operand array's buckets at the point's offset -/

/-- Bucket `p` of the query block at point `t` is bucket `128·b + p` of the query array. -/
theorem blk0_read (c : Dev nD) (t : Fin cfg0.N) (P : Fin 4096) (p : Fin 128)
    (hP : P.val = win0_3.index t (0 : Fin 3) * 128 + p.val) (a b : Fin 64) :
    (iblk m c 0 t : Vec F S128x64x64 .bf16) (ix3 p a b) = (V m c main_v7 : S4096x64x64.Idx → Elt F .bf16) (ix3 P a b) := by
  obtain ⟨e0, e1, e2, -⟩ := idx_facts0 t
  show V m c main_v7 (((cfg0.win 0).blk t).view.emb (ix3 p a b)) = V m c main_v7 (ix3 P a b)
  have h : ((cfg0.win 0).blk t).view.emb (ix3 p a b) = (ix3 P a b : S4096x64x64.Idx) := by
    funext ax; apply Fin.ext
    match ax with
    | ⟨0, _⟩ => show win0_0.index t (0 : Fin 3) * 128 + 1 * p.val = P.val; omega
    | ⟨1, _⟩ => show win0_0.index t (1 : Fin 3) * 64 + 1 * a.val = a.val; omega
    | ⟨2, _⟩ => show win0_0.index t (2 : Fin 3) * 64 + 1 * b.val = b.val; omega
  rw [h]

/-- The same for the key block. -/
theorem blk1_read (c : Dev nD) (t : Fin cfg0.N) (P : Fin 4096) (p : Fin 128)
    (hP : P.val = win0_3.index t (0 : Fin 3) * 128 + p.val) (a b : Fin 64) :
    (iblk m c 1 t : Vec F S128x64x64 .bf16) (ix3 p a b) = (V m c main_v9 : S4096x64x64.Idx → Elt F .bf16) (ix3 P a b) := by
  obtain ⟨e0, e1, e2, -⟩ := idx_facts1 t
  show V m c main_v9 (((cfg0.win 1).blk t).view.emb (ix3 p a b)) = V m c main_v9 (ix3 P a b)
  have h : ((cfg0.win 1).blk t).view.emb (ix3 p a b) = (ix3 P a b : S4096x64x64.Idx) := by
    funext ax; apply Fin.ext
    match ax with
    | ⟨0, _⟩ => show win0_1.index t (0 : Fin 3) * 128 + 1 * p.val = P.val; omega
    | ⟨1, _⟩ => show win0_1.index t (1 : Fin 3) * 64 + 1 * a.val = a.val; omega
    | ⟨2, _⟩ => show win0_1.index t (2 : Fin 3) * 64 + 1 * b.val = b.val; omega
  rw [h]

/-- The same for the value block. -/
theorem blk2_read (c : Dev nD) (t : Fin cfg0.N) (P : Fin 4096) (p : Fin 128)
    (hP : P.val = win0_3.index t (0 : Fin 3) * 128 + p.val) (a b : Fin 64) :
    (iblk m c 2 t : Vec F S128x64x64 .bf16) (ix3 p a b) = (V m c main_v11 : S4096x64x64.Idx → Elt F .bf16) (ix3 P a b) := by
  obtain ⟨e0, e1, e2, -⟩ := idx_facts2 t
  show V m c main_v11 (((cfg0.win 2).blk t).view.emb (ix3 p a b)) = V m c main_v11 (ix3 P a b)
  have h : ((cfg0.win 2).blk t).view.emb (ix3 p a b) = (ix3 P a b : S4096x64x64.Idx) := by
    funext ax; apply Fin.ext
    match ax with
    | ⟨0, _⟩ => show win0_2.index t (0 : Fin 3) * 128 + 1 * p.val = P.val; omega
    | ⟨1, _⟩ => show win0_2.index t (1 : Fin 3) * 64 + 1 * a.val = a.val; omega
    | ⟨2, _⟩ => show win0_2.index t (2 : Fin 3) * 64 + 1 * b.val = b.val; omega
  rw [h]

end AnyValues

/-! ## What a point writes back, and the array after the region -/

variable (m : (ℓ : Loc nD τ sig) → Buf (Elt Ideal) ℓ)

theorem hz : (![0, 0, 0] : Fin 3 → Nat) = fun _ => 0 := funext fun a => by fin_cases a <;> rfl

/-- The result array after the region, as one function of the operand arrays the region found. -/
abbrev result (c : Dev nD) : S4096x64x64.Idx → EReal :=
  attn (n := 4096) (V m c main_v7 : S4096x64x64.Idx → EReal) (V m c main_v9 : S4096x64x64.Idx → EReal) (V m c main_v11 : S4096x64x64.Idx → EReal)

/-- Point `t` writes back its 128 buckets of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S128x64x64) hz]
  rw [BlockValue.payload_eq]
  obtain ⟨f1, f2, f0⟩ := idx_facts3 t
  funext y
  obtain ⟨p, r, v, rfl⟩ : ∃ (p : Fin 128) (r v : Fin 64), y = ix3 p r v := ⟨y 0, y 1, y 2, eq_ix3 y⟩
  have hP : win0_3.index t (0 : Fin 3) * 128 + p.val < 4096 := by have := p.isLt; omega
  have hemb : ((cfg0.win 3).blk t).view.emb (ix3 p r v) = (ix3 (⟨win0_3.index t (0 : Fin 3) * 128 + p.val, hP⟩ : Fin 4096) r v : S4096x64x64.Idx) := by
    funext ax; apply Fin.ext
    match ax with
    | ⟨0, _⟩ => show win0_3.index t (0 : Fin 3) * 128 + 1 * p.val = win0_3.index t (0 : Fin 3) * 128 + p.val; omega
    | ⟨1, _⟩ => show win0_3.index t (1 : Fin 3) * 64 + 1 * r.val = r.val; omega
    | ⟨2, _⟩ => show win0_3.index t (2 : Fin 3) * 64 + 1 * v.val = v.val; omega
  show attn (n := 128) (iblk m c 0 t : Vec Ideal S128x64x64 .bf16) (iblk m c 1 t : Vec Ideal S128x64x64 .bf16) (iblk m c 2 t : Vec Ideal S128x64x64 .bf16) (ix3 p r v)
    = result m c (((cfg0.win 3).blk t).view.emb (ix3 p r v))
  rw [hemb]
  show entry (n := 128) _ _ _ p r v = entry (n := 4096) _ _ _ ⟨_, hP⟩ r v
  exact entry_congr (n := 4096) (n' := 128) _ _ _ _ _ _ ⟨_, hP⟩ p
    (fun a b => blk0_read m c t ⟨_, hP⟩ p rfl a b) (fun a b => blk1_read m c t ⟨_, hP⟩ p rfl a b)
    (fun a b => blk2_read m c t ⟨_, hP⟩ p rfl a b) r v

/-- An index of the result array is in point `t`'s block iff each coordinate is in the block's range on its axis. -/
theorem mem_blk (t : Fin cfg0.N) (i : S4096x64x64.Idx) :
    i ∈ ((cfg0.win 3).blk t).view.set ↔ ∀ a : Fin 3, win0_3.index t a * S128x64x64.size a ≤ (i a).val ∧ (i a).val < win0_3.index t a * S128x64x64.size a + S128x64x64.size a := by
  show i ∈ ((View.whole main_v12).slice (win0_3.rect t)).set ↔ _
  rw [View.set_slice_whole, Rect.mem_set_unit]
  exact Iff.rfl

/-- Bucket `i 0` lies in the block of the point whose group is `i 0 / 128`. -/
theorem cover (i : S4096x64x64.Idx) : ∃ t : Fin cfg0.N, (cfg0.win 3).flush t = true ∧ i ∈ ((cfg0.win 3).blk t).view.set := by
  have h0 : (i 0).val < 4096 := (i 0).isLt
  have h1 : (i 1).val < 64 := (i 1).isLt
  have h2 : (i 2).val < 64 := (i 2).isLt
  obtain ⟨t, ht⟩ := idx_onto ⟨(i 0).val / 128, by omega⟩
  have q0 : win0_3.index t (0 : Fin 3) = (i 0).val / 128 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 64 ≤ (i 1).val ∧ (i 1).val < win0_3.index t (1 : Fin 3) * 64 + 64; omega
  | ⟨2, _⟩ => show win0_3.index t (2 : Fin 3) * 64 ≤ (i 2).val ∧ (i 2).val < win0_3.index t (2 : Fin 3) * 64 + 64; omega

/-- The result array after the region is the bucket attention of the operand arrays. -/
theorem final (c : Dev nD) : (dats m 0 c).arrAt 3 cfg0.N = result m c :=
  (dats m 0 c).arrAt_eq_of_cover 3 (result m c) (fun t _ => flushed_eq m c t) (cover)

end Cert.KernelIdeal.ArrayValue

end
-- ==== Proof.LibTypedRefs.lean ====
/-
  Typed buffer references: the two transports between a value's type and its buffer's type cancel.

  A module-local function's operations are stated at the type of the tensor value (`T.Contents`), and moved to the
  buffer's own contents type along the reference's type equation, `toBuf`, and back, `ofBuf`. When a fold over such
  operations is read back, every intermediate value comes wrapped `x.ofBuf (x.toBuf v)`; the wrapper is the identity,
  for any typed reference `x` whatever its buffer. A value that crosses between such a function and the caller is
  wrapped once only (`x.ofBuf v` or `x.toBuf v` at a literal buffer whose type IS the value's); those go by unfolding
  the two transports to `cast` and core's `cast_eq`. So
      simp only [Cert.TypedRefs.ofBuf_toBuf, Cert.TypedRefs.toBuf_ofBuf, TRef.ofBuf, TRef.toBuf, cast_eq]
  leaves the plain term of the operations, which a closing `rfl` can then meet; with the wrappers still in place a
  `rfl` has to see through one cast per intermediate value and does not come back on a long function.
-/
import Idealize.ShloMosaic.Lib.StableHlo

namespace Cert.TypedRefs

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  unfold TRef.ofBuf TRef.toBuf
  rw [cast_cast]
  exact cast_eq _ _

/-- Buffer contents moved to the value's type and back are the buffer contents. -/
theorem toBuf_ofBuf (x : TRef sig T) (v : x.ref.ty.Contents Val) : x.toBuf (x.ofBuf v) = v := by
  unfold TRef.ofBuf TRef.toBuf
  rw [cast_cast]
  exact cast_eq _ _

end Cert.TypedRefs
-- ==== Proof.KernelHost.lean ====
/-
  The host operations around the kernel's region, as values. Before the region @main gathers the rows of `query` by
  `Q_sort_idx` and of `key` and `weight` by `K_sort_idx` (`take_along_axis` on axis 2), regroups each as 4096 buckets of
  64 rows, and narrows to the 16-bit format: those are the three operand arrays the region finds. After the region it
  lays the result's buckets back as `[4, 16, 4096, 64]` and gathers its rows by the sorted positions of `Q_sort_idx`.
-/
import proofs.«101947_j90675349553507_1_alg».proof.Proof.Gen.KernelIdeal.Frame
import proofs.«101947_j90675349553507_1_alg».proof.Proof.LibTypedRefs
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- `take_along_axis` on axis 2, as the host computes it: row `(b, h, n)` of the result is row `(b, h, idx b h n)` of `x`,
    a negative position counted from the end (4096 added), and the whole row the quiet-NaN word when the position so
    normalised is still outside `0 … 4095`. -/
def takeRows (x : FVec F S4x16x4096x64 .f32) (idx : IVec S4x16x4096 32) : FVec F S4x16x4096x64 .f32 :=
  let i0 : IVec S4x16x4096x1 32 := broadcastInDim S4x16x4096x1 ![0, 1, 2] bcast_S4x16x4096_S4x16x4096x1_0_1_2 idx
  let i4 : IVec S4x16x4096x1 32 :=
    select (cmpi .slt i0 (broadcastInDim S4x16x4096x1 ![] bcast_S_S4x16x4096x1 (constantI S_ 32 0#32)))
      (addi i0 (broadcastInDim S4x16x4096x1 ![] bcast_S_S4x16x4096x1 (constantI S_ 32 4096#32))) i0
  select
    (broadcastInDim S4x16x4096x64 ![0, 1, 2] bcast_S4x16x4096_S4x16x4096x64_0_1_2
      (Host.reduce IntOp.andi
        (andi (cmpi .sge i4 (broadcastInDim S4x16x4096x1 ![] bcast_S_S4x16x4096x1 (constantI S_ 32 0#32)))
          (cmpi .sle i4 (broadcastInDim S4x16x4096x1 ![0, 1, 2, 3] bcast_S1x1x1x1_S4x16x4096x1_0_1_2_3
            (broadcastInDim S1x1x1x1 ![3] bcast_S1_S1x1x1x1_3 (constantI S1 32 4095#32)))))
        (constantI S_ 1 1#1) reducesTo_S4x16x4096x1_S4x16x4096_d3 h_S_))
    (Host.gather gather_S4x16x4096x64_S4x16x4096x1_S4x16x4096x64_3_2_01_01_2_3_11164 x i4)
    (broadcastInDim S4x16x4096x64 ![] bcast_S_S4x16x4096x64 (constant (F := F) S_ .f32 0x7FC00000#32))

/-- `argsort` along axis 2: the positions `0 … 4095` of every `(b, h)` reordered by a stable sort of the keys `idx b h ·`
    (for a permutation, its inverse). Never opened: both programs apply it to the same argument. -/
def sortPositions (idx : IVec S4x16x4096 32) : IVec S4x16x4096 32 :=
  (Host.sort2 S4x16x4096 2 comparator_i32_i32_d2 idx (iotaInDim S4x16x4096 32 2)).2

/-- The rows gathered by `idx`, regrouped as 4096 buckets of 64 rows: bucket `(b·16 + h)·64 + g` holds rows
    `64·g … 64·g + 63` of `(b, h)`. -/
def bucketsOf (x : FVec F S4x16x4096x64 .f32) (idx : IVec S4x16x4096 32) : FVec F S4096x64x64 .f32 :=
  shapeCast S4096x64x64 (takeRows x idx) shapeCasts_S4x16x4096x64_S4096x64x64

/-- The buckets laid back as `[4, 16, 4096, 64]` and the rows put back in their original order: gathered by the
    sorted positions of `qidx`. -/
def unbucket (res : FVec F S4096x64x64 .f32) (qidx : IVec S4x16x4096 32) : FVec F S4x16x4096x64 .f32 :=
  takeRows (shapeCast S4x16x4096x64 res shapeCasts_S4096x64x64_S4x16x4096x64) (sortPositions qidx)
variable (m : (ℓ : Loc nD τ sig) → Buf (Elt F) ℓ)

/-! ## The operand arrays as the region finds them -/

/-- The query operand: `query`'s rows gathered by `Q_sort_idx`, in buckets, narrowed. -/
theorem V_queries (c : Dev nD) : (V m c main_v7 : S4096x64x64.Idx → Elt F .bf16)
    = truncf .bf16 (bucketsOf (m ((c : Thread nD τ).loc main_arg0)) (m ((c : Thread nD τ).loc main_arg4))) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [Cert.TypedRefs.ofBuf_toBuf, Cert.TypedRefs.toBuf_ofBuf, TRef.ofBuf, TRef.toBuf, cast_eq]
  rfl

/-- The key operand: `key`'s rows gathered by `K_sort_idx`, in buckets, narrowed. -/
theorem V_keys (c : Dev nD) : (V m c main_v9 : S4096x64x64.Idx → Elt F .bf16)
    = truncf .bf16 (bucketsOf (m ((c : Thread nD τ).loc main_arg1)) (m ((c : Thread nD τ).loc main_arg3))) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [Cert.TypedRefs.ofBuf_toBuf, Cert.TypedRefs.toBuf_ofBuf, TRef.ofBuf, TRef.toBuf, cast_eq]
  rfl

/-- The value operand: `weight`'s rows gathered by `K_sort_idx`, in buckets, narrowed. -/
theorem V_values (c : Dev nD) : (V m c main_v11 : S4096x64x64.Idx → Elt F .bf16)
    = truncf .bf16 (bucketsOf (m ((c : Thread nD τ).loc main_arg2)) (m ((c : Thread nD τ).loc main_arg3))) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [Cert.TypedRefs.ofBuf_toBuf, Cert.TypedRefs.toBuf_ofBuf, TRef.ofBuf, TRef.toBuf, cast_eq]
  rfl

/-! ## The host operations after the region -/

/-- From any contents `W` of the buffers, the four stretches after the region leave at @main's result the buckets found
    in the region's result array, laid back and un-permuted by the sorted positions of `Q_sort_idx`. -/
theorem tail_fold (W : Valuation τ sig (Elt F)) :
    StableHlo.after (List.flatten [hostOps1, hostOps1_1, hostOps1_2, hostOps1_3]) W (Proc.devRef .tc main_v16)
      = unbucket (F := F) (W (Proc.devRef .tc main_v12)) (W (Proc.devRef .tc main_arg4)) := by
  simp only [hostOps1, hostOps1_1, hostOps1_2, hostOps1_3, List.flatten_cons, List.flatten_nil, List.append_nil, List.cons_append, List.nil_append]
  after_results_simp
  simp only [Cert.TypedRefs.ofBuf_toBuf, Cert.TypedRefs.toBuf_ofBuf, TRef.ofBuf, TRef.toBuf, cast_eq]
  rfl

end Cert.KernelIdeal.HostValue

end
-- ==== Proof.KernelRun.lean ====
/-
  The idealized kernel's run, read at @main's result. The generated frame run leaves the region's result array at what
  the 32 write-backs assemble — the bucket attention of the three operand arrays the region found — and @main's result at
  the host operations after the region applied to it. With the operand arrays read back to the arguments (the format
  change is the identity on the extended reals) the result is one function `out` of the five argument arrays.
-/
import proofs.«101947_j90675349553507_1_alg».proof.Proof.KernelArray
import proofs.«101947_j90675349553507_1_alg».proof.Proof.KernelHost

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo
open Cert.KernelIdeal.HostValue Cert.BucketAttention

variable (m : (ℓ : Loc nD τ sig) → Buf (Elt Ideal) ℓ) (ρ : Dev nD → PrngReg)

/-- The result as one function of the five argument arrays: the rows of `query` sorted by `Q_sort_idx`, of `key` and
    `weight` by `K_sort_idx`, each in 4096 buckets of 64 rows; the unnormalised attention inside every bucket; the rows put
    back in their original order. -/
def out (c : Dev nD) : FVec Ideal S4x16x4096x64 .f32 :=
  unbucket (F := Ideal)
    (attn (n := 4096)
      (bucketsOf (F := Ideal) (m ((c.tc : Thread nD τ).loc main_arg0)) (m ((c.tc : Thread nD τ).loc main_arg4)))
      (bucketsOf (F := Ideal) (m ((c.tc : Thread nD τ).loc main_arg1)) (m ((c.tc : Thread nD τ).loc main_arg3)))
      (bucketsOf (F := Ideal) (m ((c.tc : Thread nD τ).loc main_arg2)) (m ((c.tc : Thread nD τ).loc main_arg3))))
    (m ((c.tc : Thread nD τ).loc main_arg4))

/-- Narrowing to the 16-bit format changes nothing on the extended reals. -/
theorem narrow_id (X : FVec Ideal S4096x64x64 .f32) : truncf .bf16 X bitsLt_bf16_f32 = X := rfl

/-- What the lines after the region leave at @main's result is `out` of the arguments. -/
theorem tail_eq (c : Dev nD) :
    Pipeline.afterTail₀ cfgs (dats m) 0 (V0 m) [hostOps1, hostOps1_1, hostOps1_2, hostOps1_3] c main_v16 = out m c := by
  unfold Pipeline.afterTail₀
  refine (tail_fold _).trans ?_
  have h12 : Pipeline.withArrays (cfgs 0).spec c (V0 m c) (fun w => (dats m 0 c).arrAt w (cfgs 0).N) (Proc.devRef .tc main_v12)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  rw [h12, h4, ArrayValue.final m c]
  unfold ArrayValue.result out
  rw [V_queries, V_keys, V_values, narrow_id, narrow_id, narrow_id]

/-- Every weakly fair execution of the idealized kernel terminates with @main's result at `out` of the arguments and the
    arguments unchanged. -/
theorem run : θ_run defs (onTc (τ := τ) (main (F := Ideal))) ⟨m, fun _ => 0, ρ⟩ fun r => ∀ c : Dev nD,
      r.2.mem ((c.tc : Thread nD τ).loc main_v16) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.RefValue.lean ====
/-
  The reference program as a value. Its @main gathers the rows of `query` by `Q_sort_idx` and of `key` and `weight` by
  `K_sort_idx`, regroups each as 4096 buckets of 64 rows, takes the scores of every bucket by a general dot product
  (bucket axis kept, last axes contracted), exponentiates, mixes the value rows by a second dot product (the weights'
  last axis against the values' row axis), lays the buckets back as `[4, 16, 4096, 64]` and gathers the rows by the
  sorted positions of `Q_sort_idx`. On the extended reals the two dot products with the exponential between them are
  the unnormalised bucket attention of the three bucketed arrays.
-/
import proofs.«101947_j90675349553507_1_alg».proof.Proof.RefRunPatched
import proofs.«101947_j90675349553507_1_alg».proof.Proof.LibTypedRefs
import proofs.«101947_j90675349553507_1_alg».proof.Proof.BucketAttention
import Idealize.ShloMosaic.Lib.StableHlo.Run

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx Cert.BucketAttention

/-! ## What the two dot products' dimension numbers say about operand indices -/

/-- The scores' left operand at output `(p, r, j)` and contraction position `c`: query row `r` of bucket `p`, column `c`. -/
theorem scores_lhs (p : Fin 4096) (r j c : Fin 64) :
    dot_S4096x64x64_S4096x64x64_S4096x64x64_2_2_1_1_0_0.lhsIdx (ix3 p r j) ((contrEquiv1 dot_S4096x64x64_S4096x64x64_S4096x64x64_2_2_1_1_0_0 64 rfl rfl).symm c) = ix3 p r c := by
  have hc := contrEquiv1_symm_val dot_S4096x64x64_S4096x64x64_S4096x64x64_2_2_1_1_0_0 64 rfl rfl c
  funext a; apply Fin.ext
  match a with
  | ⟨0, _⟩ =>
    show (dot_S4096x64x64_S4096x64x64_S4096x64x64_2_2_1_1_0_0.lhsIdx (ix3 p r j) _ 0).val = (p).val
    unfold DotDims.lhsIdx
    rw [dif_pos (show (0 : Fin S4096x64x64.rank) ∈ dot_S4096x64x64_S4096x64x64_S4096x64x64_2_2_1_1_0_0.lhsBatch by decide)]
    rfl
  | ⟨1, _⟩ =>
    show (dot_S4096x64x64_S4096x64x64_S4096x64x64_2_2_1_1_0_0.lhsIdx (ix3 p r j) _ 1).val = (r).val
    unfold DotDims.lhsIdx
    rw [dif_neg (show ¬(1 : Fin S4096x64x64.rank) ∈ dot_S4096x64x64_S4096x64x64_S4096x64x64_2_2_1_1_0_0.lhsBatch by decide), dif_pos (show (1 : Fin S4096x64x64.rank) ∈ dot_S4096x64x64_S4096x64x64_S4096x64x64_2_2_1_1_0_0.lhsNonContracting by decide)]
    rfl
  | ⟨2, _⟩ =>
    show (dot_S4096x64x64_S4096x64x64_S4096x64x64_2_2_1_1_0_0.lhsIdx (ix3 p r j) _ 2).val = (c).val
    exact (dot_S4096x64x64_S4096x64x64_S4096x64x64_2_2_1_1_0_0.lhsIdx_val_of_single rfl _ _).trans hc

/-- The scores' right operand there: key row `j` of bucket `p`, column `c`. -/
theorem scores_rhs (p : Fin 4096) (r j c : Fin 64) :
    dot_S4096x64x64_S4096x64x64_S4096x64x64_2_2_1_1_0_0.rhsIdx (ix3 p r j) ((contrEquiv1 dot_S4096x64x64_S4096x64x64_S4096x64x64_2_2_1_1_0_0 64 rfl rfl).symm c) = ix3 p j c := by
  have hc := contrEquiv1_symm_val dot_S4096x64x64_S4096x64x64_S4096x64x64_2_2_1_1_0_0 64 rfl rfl c
  funext a; apply Fin.ext
  match a with
  | ⟨0, _⟩ =>
    show (dot_S4096x64x64_S4096x64x64_S4096x64x64_2_2_1_1_0_0.rhsIdx (ix3 p r j) _ 0).val = (p).val
    unfold DotDims.rhsIdx
    rw [dif_pos (show (0 : Fin S4096x64x64.rank) ∈ dot_S4096x64x64_S4096x64x64_S4096x64x64_2_2_1_1_0_0.rhsBatch by decide)]
    rfl
  | ⟨1, _⟩ =>
    show (dot_S4096x64x64_S4096x64x64_S4096x64x64_2_2_1_1_0_0.rhsIdx (ix3 p r j) _ 1).val = (j).val
    unfold DotDims.rhsIdx
    rw [dif_neg (show ¬(1 : Fin S4096x64x64.rank) ∈ dot_S4096x64x64_S4096x64x64_S4096x64x64_2_2_1_1_0_0.rhsBatch by decide), dif_pos (show (1 : Fin S4096x64x64.rank) ∈ dot_S4096x64x64_S4096x64x64_S4096x64x64_2_2_1_1_0_0.rhsNonContracting by decide)]
    rfl
  | ⟨2, _⟩ =>
    show (dot_S4096x64x64_S4096x64x64_S4096x64x64_2_2_1_1_0_0.rhsIdx (ix3 p r j) _ 2).val = (c).val
    exact (dot_S4096x64x64_S4096x64x64_S4096x64x64_2_2_1_1_0_0.rhsIdx_val_of_single rfl _ _).trans hc

/-- The mix's left operand at output `(p, r, v)` and contraction position `c`: the weight of query row `r` against key row `c`. -/
theorem mix_lhs (p : Fin 4096) (r v c : Fin 64) :
    dot_S4096x64x64_S4096x64x64_S4096x64x64_2_1_1_2_0_0.lhsIdx (ix3 p r v) ((contrEquiv1 dot_S4096x64x64_S4096x64x64_S4096x64x64_2_1_1_2_0_0 64 rfl rfl).symm c) = ix3 p r c := by
  have hc := contrEquiv1_symm_val dot_S4096x64x64_S4096x64x64_S4096x64x64_2_1_1_2_0_0 64 rfl rfl c
  funext a; apply Fin.ext
  match a with
  | ⟨0, _⟩ =>
    show (dot_S4096x64x64_S4096x64x64_S4096x64x64_2_1_1_2_0_0.lhsIdx (ix3 p r v) _ 0).val = (p).val
    unfold DotDims.lhsIdx
    rw [dif_pos (show (0 : Fin S4096x64x64.rank) ∈ dot_S4096x64x64_S4096x64x64_S4096x64x64_2_1_1_2_0_0.lhsBatch by decide)]
    rfl
  | ⟨1, _⟩ =>
    show (dot_S4096x64x64_S4096x64x64_S4096x64x64_2_1_1_2_0_0.lhsIdx (ix3 p r v) _ 1).val = (r).val
    unfold DotDims.lhsIdx
    rw [dif_neg (show ¬(1 : Fin S4096x64x64.rank) ∈ dot_S4096x64x64_S4096x64x64_S4096x64x64_2_1_1_2_0_0.lhsBatch by decide), dif_pos (show (1 : Fin S4096x64x64.rank) ∈ dot_S4096x64x64_S4096x64x64_S4096x64x64_2_1_1_2_0_0.lhsNonContracting by decide)]
    rfl
  | ⟨2, _⟩ =>
    show (dot_S4096x64x64_S4096x64x64_S4096x64x64_2_1_1_2_0_0.lhsIdx (ix3 p r v) _ 2).val = (c).val
    exact (dot_S4096x64x64_S4096x64x64_S4096x64x64_2_1_1_2_0_0.lhsIdx_val_of_single rfl _ _).trans hc

/-- The mix's right operand there: value row `c` of bucket `p`, column `v`. -/
theorem mix_rhs (p : Fin 4096) (r v c : Fin 64) :
    dot_S4096x64x64_S4096x64x64_S4096x64x64_2_1_1_2_0_0.rhsIdx (ix3 p r v) ((contrEquiv1 dot_S4096x64x64_S4096x64x64_S4096x64x64_2_1_1_2_0_0 64 rfl rfl).symm c) = ix3 p c v := by
  have hc := contrEquiv1_symm_val dot_S4096x64x64_S4096x64x64_S4096x64x64_2_1_1_2_0_0 64 rfl rfl c
  funext a; apply Fin.ext
  match a with
  | ⟨0, _⟩ =>
    show (dot_S4096x64x64_S4096x64x64_S4096x64x64_2_1_1_2_0_0.rhsIdx (ix3 p r v) _ 0).val = (p).val
    unfold DotDims.rhsIdx
    rw [dif_pos (show (0 : Fin S4096x64x64.rank) ∈ dot_S4096x64x64_S4096x64x64_S4096x64x64_2_1_1_2_0_0.rhsBatch by decide)]
    rfl
  | ⟨1, _⟩ =>
    show (dot_S4096x64x64_S4096x64x64_S4096x64x64_2_1_1_2_0_0.rhsIdx (ix3 p r v) _ 1).val = (c).val
    exact (dot_S4096x64x64_S4096x64x64_S4096x64x64_2_1_1_2_0_0.rhsIdx_val_of_single rfl _ _).trans hc
  | ⟨2, _⟩ =>
    show (dot_S4096x64x64_S4096x64x64_S4096x64x64_2_1_1_2_0_0.rhsIdx (ix3 p r v) _ 2).val = (v).val
    unfold DotDims.rhsIdx
    rw [dif_neg (show ¬(2 : Fin S4096x64x64.rank) ∈ dot_S4096x64x64_S4096x64x64_S4096x64x64_2_1_1_2_0_0.rhsBatch by decide), dif_pos (show (2 : Fin S4096x64x64.rank) ∈ dot_S4096x64x64_S4096x64x64_S4096x64x64_2_1_1_2_0_0.rhsNonContracting by decide)]
    rfl

/-- The two dot products with the host's exponential between them are the bucket attention of their operands. -/
theorem core_eq (a b w : FVec Ideal S4096x64x64 .f32) :
    Host.dotGeneral (F := Ideal) dot_S4096x64x64_S4096x64x64_S4096x64x64_2_1_1_2_0_0 none
      (Host.exp (Host.dotGeneral (F := Ideal) dot_S4096x64x64_S4096x64x64_S4096x64x64_2_2_1_1_0_0 none a b)) w
      = attn (n := 4096) a b w := by
  funext i
  obtain ⟨p, r, v, rfl⟩ : ∃ (p : Fin 4096) (r v : Fin 64), i = ix3 p r v := ⟨i 0, i 1, i 2, eq_ix3 i⟩
  rw [attn_ix3]
  exact dots_entry (n := 4096) dot_S4096x64x64_S4096x64x64_S4096x64x64_2_2_1_1_0_0 dot_S4096x64x64_S4096x64x64_S4096x64x64_2_1_1_2_0_0
    rfl rfl rfl rfl scores_lhs scores_rhs mix_lhs mix_rhs a b w p r v

/-! ## The host functions, named -/

variable {F : FTy → Type} [FloatOps F]

/-- `take_along_axis` on axis 2, as the host computes it: row `(b, h, n)` of the result is row `(b, h, idx b h n)` of `x`,
    a negative position counted from the end (4096 added), and the whole row the quiet-NaN word when the position so
    normalised is still outside `0 … 4095`. -/
def takeRows (x : FVec F S4x16x4096x64 .f32) (idx : IVec S4x16x4096 32) : FVec F S4x16x4096x64 .f32 :=
  let i0 : IVec S4x16x4096x1 32 := broadcastInDim S4x16x4096x1 ![0, 1, 2] bcast_S4x16x4096_S4x16x4096x1_0_1_2 idx
  let i4 : IVec S4x16x4096x1 32 :=
    select (cmpi .slt i0 (broadcastInDim S4x16x4096x1 ![] bcast_S_S4x16x4096x1 (constantI S_ 32 0#32)))
      (addi i0 (broadcastInDim S4x16x4096x1 ![] bcast_S_S4x16x4096x1 (constantI S_ 32 4096#32))) i0
  select
    (broadcastInDim S4x16x4096x64 ![0, 1, 2] bcast_S4x16x4096_S4x16x4096x64_0_1_2
      (Host.reduce IntOp.andi
        (andi (cmpi .sge i4 (broadcastInDim S4x16x4096x1 ![] bcast_S_S4x16x4096x1 (constantI S_ 32 0#32)))
          (cmpi .sle i4 (broadcastInDim S4x16x4096x1 ![0, 1, 2, 3] bcast_S1x1x1x1_S4x16x4096x1_0_1_2_3
            (broadcastInDim S1x1x1x1 ![3] bcast_S1_S1x1x1x1_3 (constantI S1 32 4095#32)))))
        (constantI S_ 1 1#1) reducesTo_S4x16x4096x1_S4x16x4096_d3 h_S_))
    (Host.gather gather_S4x16x4096x64_S4x16x4096x1_S4x16x4096x64_3_2_01_01_2_3_11164 x i4)
    (broadcastInDim S4x16x4096x64 ![] bcast_S_S4x16x4096x64 (constant (F := F) S_ .f32 0x7FC00000#32))

/-- `argsort` along axis 2: the positions `0 … 4095` of every `(b, h)` reordered by a stable sort of the keys `idx b h ·`
    (for a permutation, its inverse). Never opened: both programs apply it to the same argument. -/
def sortPositions (idx : IVec S4x16x4096 32) : IVec S4x16x4096 32 :=
  (Host.sort2 S4x16x4096 2 comparator_i32_i32_d2 idx (iotaInDim S4x16x4096 32 2)).2

/-- The rows gathered by `idx`, regrouped as 4096 buckets of 64 rows: bucket `(b·16 + h)·64 + g` holds rows
    `64·g … 64·g + 63` of `(b, h)`. -/
def bucketsOf (x : FVec F S4x16x4096x64 .f32) (idx : IVec S4x16x4096 32) : FVec F S4096x64x64 .f32 :=
  shapeCast S4096x64x64 (takeRows x idx) shapeCasts_S4x16x4096x64_S4096x64x64

/-- The buckets laid back as `[4, 16, 4096, 64]` and the rows put back in their original order: gathered by the
    sorted positions of `qidx`. -/
def unbucket (res : FVec F S4096x64x64 .f32) (qidx : IVec S4x16x4096 32) : FVec F S4x16x4096x64 .f32 :=
  takeRows (shapeCast S4x16x4096x64 res shapeCasts_S4096x64x64_S4x16x4096x64) (sortPositions qidx)
/-! ## The run, read at the result -/

variable (m : (ℓ : Loc nD τ sig) → Buf (Elt F) ℓ)

set_option maxHeartbeats 40800000 in
/-- The fold of @main's 102 operations at the result buffer: the gathers, the buckets, the two dot products with the
    exponential between them, the buckets laid back and un-permuted. -/
theorem result_fold (c : Dev nD) :
    after (ops (F := F)) (launchContents m c) (Proc.devRef .tc main_v15)
      = unbucket (Host.dotGeneral dot_S4096x64x64_S4096x64x64_S4096x64x64_2_1_1_2_0_0 none
          (Host.exp (Host.dotGeneral dot_S4096x64x64_S4096x64x64_S4096x64x64_2_2_1_1_0_0 none
            (bucketsOf (m ((c.tc : Thread nD τ).loc main_arg0)) (m ((c.tc : Thread nD τ).loc main_arg4)))
            (bucketsOf (m ((c.tc : Thread nD τ).loc main_arg1)) (m ((c.tc : Thread nD τ).loc main_arg3)))))
          (bucketsOf (m ((c.tc : Thread nD τ).loc main_arg2)) (m ((c.tc : Thread nD τ).loc main_arg3))))
        (m ((c.tc : Thread nD τ).loc main_arg4)) := by
  after_results_simp
  simp only [Cert.TypedRefs.ofBuf_toBuf, Cert.TypedRefs.toBuf_ofBuf, TRef.ofBuf, TRef.toBuf, cast_eq]
  rfl

section AtIdeal

variable (m : (ℓ : Loc nD τ sig) → Buf (Elt Ideal) ℓ) (ρ : Dev nD → PrngReg)

/-- The result as one function of the five argument arrays: the rows of `query` sorted by `Q_sort_idx`, of `key` and
    `weight` by `K_sort_idx`, each in 4096 buckets of 64 rows; the unnormalised attention inside every bucket; the rows put
    back in their original order. -/
def out (c : Dev nD) : FVec Ideal S4x16x4096x64 .f32 :=
  unbucket (F := Ideal)
    (attn (n := 4096)
      (bucketsOf (F := Ideal) (m ((c.tc : Thread nD τ).loc main_arg0)) (m ((c.tc : Thread nD τ).loc main_arg4)))
      (bucketsOf (F := Ideal) (m ((c.tc : Thread nD τ).loc main_arg1)) (m ((c.tc : Thread nD τ).loc main_arg3)))
      (bucketsOf (F := Ideal) (m ((c.tc : Thread nD τ).loc main_arg2)) (m ((c.tc : Thread nD τ).loc main_arg3))))
    (m ((c.tc : Thread nD τ).loc main_arg4))

set_option maxHeartbeats 40800000 in
/-- Every weakly fair execution of the idealized reference terminates with @main's result at `out` of the arguments and
    the arguments unchanged. -/
theorem run : θ_run defs (onTc (τ := τ) (main (F := Ideal))) ⟨m, fun _ => 0, ρ⟩ fun r => ∀ c : Dev nD,
      r.2.mem ((c.tc : Thread nD τ).loc main_v15) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v15).trans ((result_fold m c).trans
        (congrArg (fun z => unbucket (F := Ideal) z (m ((c.tc : Thread nD τ).loc main_arg4))) (core_eq _ _ _))),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_fold m ρ)

end AtIdeal

end Cert.ReferenceIdeal.RefValue

end
-- ==== Proof.lean ====
/-
  The certificate of the bucketed, unnormalised attention kernel against its jnp reference.

  Both programs sort the rows of `query` by `Q_sort_idx` and the rows of `key` and `weight` by `K_sort_idx` (a
  `take_along_axis` on the sequence axis), cut each `(batch, head)` into 64 buckets of 64 consecutive sorted rows — 4096
  buckets in all —, compute inside every bucket

      out(p, r, v) = Σ_j exp (Σ_d q(p, r, d) · k(p, j, d)) · w(p, j, v),

  lay the buckets back and put the rows in their original order by the sorted positions of `Q_sort_idx`. The kernel does
  the middle step on the vector unit, 128 buckets per grid point over 32 points, on operands narrowed to the 16-bit
  format, with two matrix products into zero accumulators; the reference does it on the host with two general dot
  products. On the extended reals a format change is the identity and both kinds of product are the plain sums of
  products, so each program's result is the SAME function `out` of the five argument arrays; since no row is
  normalised and no two sums are regrouped, no finiteness of the inputs is used. The head (the three gathers) and the
  tail (the final gather) are the same host operations in both programs and are never opened: they are named
  functions, applied on both sides to equal arguments.

  The three frames: the two kernels' are the generated frame runs; the reference's is its run with the result dropped.
  The idealization rewrote nothing, so its ledger is empty.
-/
import proofs.«101947_j90675349553507_1_alg».proof.Defs
import proofs.«101947_j90675349553507_1_alg».proof.Proof.Gen.Kernel
import proofs.«101947_j90675349553507_1_alg».proof.Proof.Gen.Kernel.Skeleton
import proofs.«101947_j90675349553507_1_alg».proof.Proof.Gen.Kernel.Launch
import proofs.«101947_j90675349553507_1_alg».proof.Proof.Gen.Kernel.Points
import proofs.«101947_j90675349553507_1_alg».proof.Proof.Gen.Kernel.Frame
import proofs.«101947_j90675349553507_1_alg».proof.Proof.Gen.KernelIdeal
import proofs.«101947_j90675349553507_1_alg».proof.Proof.Gen.KernelIdeal.Skeleton
import proofs.«101947_j90675349553507_1_alg».proof.Proof.Gen.KernelIdeal.Launch
import proofs.«101947_j90675349553507_1_alg».proof.Proof.Gen.KernelIdeal.Points
import proofs.«101947_j90675349553507_1_alg».proof.Proof.Gen.KernelIdeal.Frame
import proofs.«101947_j90675349553507_1_alg».proof.Proof.Gen.ReferenceIdeal
import proofs.«101947_j90675349553507_1_alg».proof.Proof.Gen.Pre_finite_inputs
import proofs.«101947_j90675349553507_1_alg».proof.Proof.RefRunPatched
import proofs.«101947_j90675349553507_1_alg».proof.Proof.KernelRun
import proofs.«101947_j90675349553507_1_alg».proof.Proof.RefValue
import Idealize.ShloMosaic.Adequacy
import Idealize.ShloMosaic.Init

noncomputable section

namespace Cert.Proof

open Idealize.ShloMosaic Idealize.SL.Sem

/-! ## The two programs' named host functions are the same functions -/

/-- The gather-and-bucket function of the reference is the kernel's (the same operations over the same literal shapes). -/
theorem bucketsOf_eq : @Cert.ReferenceIdeal.RefValue.bucketsOf Ideal _ = @Cert.KernelIdeal.HostValue.bucketsOf Ideal _ := rfl

/-- So is the function that lays the buckets back and un-permutes the rows. -/
theorem unbucket_eq : @Cert.ReferenceIdeal.RefValue.unbucket Ideal _ = @Cert.KernelIdeal.HostValue.unbucket Ideal _ := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

/-- From memories agreeing on the five arguments both idealized programs end with @main's result at `out` of those
    arguments: the reference's `out` is the kernel's, its named host functions being the kernel's. -/
theorem algebraic : Cert.algebraic_KernelIdeal_ReferenceIdeal := by
  intro m ρ m' ρ' _ hagree
  refine ⟨fun c => Cert.KernelIdeal.RunValue.out m c, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  unfold Cert.ReferenceIdeal.RefValue.out Cert.KernelIdeal.RunValue.out
  rw [(hagree c).1, (hagree c).2.1, (hagree c).2.2.1, (hagree c).2.2.2.1, (hagree c).2.2.2.2, bucketsOf_eq, unbucket_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
